-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S1x1 : Shape := ⟨2, ![1, 1]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S8192x256, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1x1, .f32⟩
  | .local _ .vmem, ⟨3, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  reduces_S256x256_S256 : S256x256.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x256_S1024x256_S256x256_0_0_1_1_n_n_wf : DotDims.WF S1024x256 S1024x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.GramAlgebra.lean ====
/-
  The algebra that joins the two programs.

  For a real matrix `a` with rows `i` and columns `d`, the column Gram matrix `aᵀ a` (entries `∑ i, a i d · a i e`) and
  the row Gram matrix `a aᵀ` (entries `∑ d, a i d · a j d`) have the same sum of squared entries: each is the sum over
  `i, j, d, e` of `a i d · a i e · a j d · a j e`.  The law distributes products over sums, so it is proved over the reals and
  carried to the extended reals only for matrices whose entries are all real; there it also absorbs the two zeros the
  programs start their sums from.  The rows may come in blocks: a sum over `(t, r)`, block `t` and row `r` inside the
  block, is the sum over the row number `r + n · t`.
-/
import Idealize.ShloMosaic.PureOps.Ideal.Laws

namespace Cert.Gram

variable {ι κ : Type} [Fintype ι] [Fintype κ]

/-- Four nested sums with the two index pairs exchanged: sums commute in any commutative monoid. -/
theorem sum_pairs_comm {M : Type} [AddCommMonoid M] (F : κ → κ → ι → ι → M) :
    ∑ d, ∑ e, ∑ i, ∑ j, F d e i j = ∑ i, ∑ j, ∑ d, ∑ e, F d e i j := by
  calc ∑ d, ∑ e, ∑ i, ∑ j, F d e i j
      = ∑ d, ∑ i, ∑ e, ∑ j, F d e i j := Finset.sum_congr rfl fun d _ => Finset.sum_comm
    _ = ∑ i, ∑ d, ∑ e, ∑ j, F d e i j := Finset.sum_comm
    _ = ∑ i, ∑ d, ∑ j, ∑ e, F d e i j :=
        Finset.sum_congr rfl fun i _ => Finset.sum_congr rfl fun d _ => Finset.sum_comm
    _ = ∑ i, ∑ j, ∑ d, ∑ e, F d e i j := Finset.sum_congr rfl fun i _ => Finset.sum_comm

/-- `‖aᵀ a‖² = ‖a aᵀ‖²` (Frobenius norms), entry by entry over the reals. -/
theorem sq_colGram_eq_sq_rowGram (a : ι → κ → ℝ) :
    ∑ d, ∑ e, (∑ i, a i d * a i e) * (∑ i, a i d * a i e)
      = ∑ i, ∑ j, (∑ d, a i d * a j d) * (∑ d, a i d * a j d) := by
  simp only [Finset.sum_mul_sum]
  refine (sum_pairs_comm _).trans ?_
  exact Finset.sum_congr rfl fun i _ => Finset.sum_congr rfl fun j _ => Finset.sum_congr rfl fun d _ =>
    Finset.sum_congr rfl fun e _ => by ring

/-- The coercion of the reals into the extended reals commutes with finite sums. -/
theorem coe_sum {α : Type} (s : Finset α) (f : α → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The same law for a matrix of extended reals all of whose entries are real, with the zeros the two programs start
    their sums from: the column Gram matrix is accumulated from `0`, the total of the row Gram matrix's squares too. -/
theorem sq_colGram_eq_sq_rowGram_of_real (A : ι → κ → EReal) (a : ι → κ → ℝ) (h : ∀ i d, A i d = (a i d : EReal)) :
    ∑ d, ∑ e, (0 + ∑ i, A i d * A i e) * (0 + ∑ i, A i d * A i e)
      = 0 + ∑ i, ∑ j, (∑ d, A i d * A j d) * (∑ d, A i d * A j d) := by
  simp only [zero_add, h, ← EReal.coe_mul, ← coe_sum]
  exact congrArg _ (sq_colGram_eq_sq_rowGram a)

/-- A sum over block `t` and row `r` of the block is the sum over the row number `r + n · t`. -/
theorem sum_blocks {M : Type} [AddCommMonoid M] (m n : ℕ) (f : Fin (m * n) → M) :
    ∑ t : Fin m, ∑ r : Fin n, f (finProdFinEquiv (t, r)) = ∑ i : Fin (m * n), f i := by
  rw [← Fintype.sum_prod_type' (fun t r => f (finProdFinEquiv (t, r)))]
  exact Equiv.sum_comp finProdFinEquiv f

end Cert.Gram
-- ==== Proof.Spec.lean ====
/-
  What both programs compute, as mathematics.

  `x` is a matrix of 8192 rows and 256 columns.  Each row is divided by its Euclidean norm, the norm clamped below at the
  small positive constant `eps`: `unitRow x i d = x i d / max (√(∑ c, x i c · x i c)) eps`.  With `u = unitRow x`, one
  program totals the squared entries of `uᵀ u` (256 × 256, accumulated from `0` over eight blocks of 1024 rows), the other
  those of `u uᵀ` (8192 × 8192, its total started from `0`); both then apply `closing`: `s ↦ (s - n) / (n · n - n)` with
  `n` the word for 8192.  When every entry of `x` is real so is every entry of `u` (a row's sum of squares is a
  non-negative real, its root a real, the clamped norm a positive real), and the two totals agree by the Gram-matrix law.
-/
import Idealize.ShloMosaic.PureOps.Ideal.Laws
import Idealize.ShloMosaic.Lib.ValueIdx
import proofs.«125033_j62929860821405_2_alg».proof.Proof.GramAlgebra

noncomputable section

namespace Cert.Spec

open Idealize.ShloMosaic

/-- The lower clamp of a row's norm, the one word both programs spell. -/
def eps : EReal := Ideal.ofBits .f32 0x322BCC77#32

/-- It denotes a dyadic rational, `11258999 · 2⁻⁵⁰` (a little under `10⁻⁸`). -/
theorem eps_eq : eps = ((11258999 / 2 ^ 50 : ℝ) : EReal) := by
  unfold eps
  simp [Ideal.ofBits, Ideal.ieee, -EReal.coe_mul]; norm_num

theorem eps_real : ∃ e : ℝ, 0 < e ∧ eps = (e : EReal) := ⟨_, by positivity, eps_eq⟩

/-- The zero word denotes `0`. -/
theorem zero_word : Ideal.ofBits .f32 0x00000000#32 = 0 := Ideal.ofBits_zero_f32

/-- Row `i` of `x` divided by its clamped Euclidean norm, at column `d`. -/
def unitRow {R C : ℕ} (x : Fin R → Fin C → EReal) (i : Fin R) (d : Fin C) : EReal :=
  Ideal.div (x i d) (max (Ideal.sqrt (∑ c, x i c * x i c)) eps)

/-- The coercion of the reals into the extended reals is monotone, so it commutes with `max`. -/
theorem coe_max (a b : ℝ) : ((max a b : ℝ) : EReal) = max (a : EReal) (b : EReal) :=
  EReal.coe_strictMono.monotone.map_max

/-- A matrix of reals has real unit rows. -/
theorem unitRow_real {R C : ℕ} (x : Fin R → Fin C → EReal) (xr : Fin R → Fin C → ℝ) (h : ∀ i c, x i c = (xr i c : EReal)) :
    ∃ a : Fin R → Fin C → ℝ, ∀ i d, unitRow x i d = (a i d : EReal) := by
  obtain ⟨e, he, hE⟩ := eps_real
  refine ⟨fun i d => xr i d * (1 / max (Real.sqrt (∑ c, xr i c * xr i c)) e), fun i d => ?_⟩
  unfold unitRow
  simp only [h, ← EReal.coe_mul, ← Cert.Gram.coe_sum, Ideal.sqrt_coe]
  rw [if_neg (not_lt.mpr (Finset.sum_nonneg fun c _ => mul_self_nonneg _)), hE, ← coe_max,
    Ideal.div_coe (ne_of_gt (lt_max_of_lt_right he)), ← EReal.coe_mul]

/-- Row `r` of block `t`, eight blocks of 1024 rows. -/
def blockRow (t : Fin 8) (r : Fin 1024) : Fin 8192 := ⟨1024 * t.val + r.val, by have := t.isLt; have := r.isLt; omega⟩

/-- A sum over the rows block by block is the sum over all rows. -/
theorem sum_blockRow {M : Type} [AddCommMonoid M] (f : Fin 8192 → M) :
    ∑ t : Fin 8, ∑ r : Fin 1024, f (blockRow t r) = ∑ i : Fin 8192, f i := by
  have e := Cert.Gram.sum_blocks 8 1024 (fun i : Fin (8 * 1024) => f i)
  rw [← e]
  refine Finset.sum_congr rfl fun t _ => Finset.sum_congr rfl fun r _ => congrArg f (Fin.ext ?_)
  show 1024 * t.val + r.val = r.val + 1024 * t.val
  omega

/-- THE LAW.  For a real matrix: the squared entries of `uᵀ u`, accumulated from `0` block by block, total what the
    squared entries of `u uᵀ` total, started from `0`. -/
theorem total_eq (x : Fin 8192 → Fin 256 → EReal) (xr : Fin 8192 → Fin 256 → ℝ) (h : ∀ i c, x i c = (xr i c : EReal)) :
    ∑ d : Fin 256, ∑ e : Fin 256,
        (0 + ∑ t : Fin 8, ∑ r : Fin 1024, unitRow x (blockRow t r) d * unitRow x (blockRow t r) e)
          * (0 + ∑ t : Fin 8, ∑ r : Fin 1024, unitRow x (blockRow t r) d * unitRow x (blockRow t r) e)
      = 0 + ∑ i : Fin 8192, ∑ j : Fin 8192,
          (∑ d : Fin 256, unitRow x i d * unitRow x j d) * (∑ d : Fin 256, unitRow x i d * unitRow x j d) := by
  obtain ⟨a, ha⟩ := unitRow_real x xr h
  rw [← Cert.Gram.sq_colGram_eq_sq_rowGram_of_real (unitRow x) a ha]
  refine Finset.sum_congr rfl fun d _ => Finset.sum_congr rfl fun e _ => ?_
  rw [sum_blockRow (fun i => unitRow x i d * unitRow x i e)]

/-- The entries of the 8192 × 256 argument array, as a matrix indexed by row and column. -/
def entries (X : FVec Ideal ⟨2, ![8192, 256]⟩ .f32) : Fin 8192 → Fin 256 → EReal := fun i c => X (ValueIdx.ix2 i c)

/-- The total of the squared entries of `uᵀ u`, accumulated from `0` over the eight blocks of rows. -/
def colGramTotal (x : Fin 8192 → Fin 256 → EReal) : EReal :=
  ∑ d : Fin 256, ∑ e : Fin 256,
    (0 + ∑ t : Fin 8, ∑ r : Fin 1024, unitRow x (blockRow t r) d * unitRow x (blockRow t r) e)
      * (0 + ∑ t : Fin 8, ∑ r : Fin 1024, unitRow x (blockRow t r) d * unitRow x (blockRow t r) e)

/-- The total of the squared entries of `u uᵀ`, started from `0`. -/
def rowGramTotal (x : Fin 8192 → Fin 256 → EReal) : EReal :=
  0 + ∑ i : Fin 8192, ∑ j : Fin 8192,
    (∑ d : Fin 256, unitRow x i d * unitRow x j d) * (∑ d : Fin 256, unitRow x i d * unitRow x j d)

theorem colGramTotal_eq_rowGramTotal (x : Fin 8192 → Fin 256 → EReal) (xr : Fin 8192 → Fin 256 → ℝ)
    (h : ∀ i c, x i c = (xr i c : EReal)) : colGramTotal x = rowGramTotal x := total_eq x xr h

/-- The arithmetic both programs close with: `(s - n) / (n · n - n)`, `n` the word for 8192. -/
def closing (s : FVec Ideal ⟨0, ![]⟩ .f32) : FVec Ideal ⟨0, ![]⟩ .f32 :=
  Host.divf (F := Ideal) (subf s (constant (F := Ideal) ⟨0, ![]⟩ .f32 0x46000000#32))
    (subf (mulf (constant (F := Ideal) ⟨0, ![]⟩ .f32 0x46000000#32) (constant (F := Ideal) ⟨0, ![]⟩ .f32 0x46000000#32))
      (constant (F := Ideal) ⟨0, ![]⟩ .f32 0x46000000#32))

end Cert.Spec

end
-- ==== Proof.FiniteInputs.lean ====
/-
  The precondition, read back: every entry of the argument is a real number.

  The precondition is one `all` over the array of the comparison `|x| < +∞`.  A conjunction that is true is true at
  every index; `|x|` is `max x (-x)` on the extended reals and the word `0x7F800000` denotes `+∞`; and an extended real
  whose absolute value is below `+∞` is neither infinity, so it is a real.
-/
import proofs.«125033_j62929860821405_2_alg».proof.Pre_finite_inputs
import proofs.«125033_j62929860821405_2_alg».proof.Proof.Gen.Pre_finite_inputs
import proofs.«125033_j62929860821405_2_alg».proof.Proof.Spec
import Idealize.ShloMosaic.Lib.ReduceAll
import Idealize.ShloMosaic.Lib.ValueIdx
import Idealize.ShloMosaic.PureOps.Ideal.Laws

noncomputable section

namespace Cert.FiniteInputs

open Idealize.ShloMosaic Cert.Spec

/-- The scalar shape has one index. -/
instance : Subsingleton Cert.Pre_finite_inputs.S_.Idx := ⟨fun a b => funext fun d => d.elim0⟩

/-- The word the precondition compares against denotes `+∞`. -/
theorem inf_word : Ideal.ofBits .f32 0x7F800000#32 = ⊤ := by simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Under the precondition the argument's entries are reals. -/
theorem entries_real [Cert.Pre_finite_inputs.Facts] (X : FVec Ideal ⟨2, ![8192, 256]⟩ .f32)
    (h : Cert.Pre_finite_inputs.fn (F := Ideal) X = fun _ => 1#1) :
    ∃ xr : Fin 8192 → Fin 256 → ℝ, ∀ i c, entries X i c = (xr i c : EReal) := by
  have h0 := congrFun h ValueIdx.ix0
  dsimp only [Cert.Pre_finite_inputs.fn] at h0
  have hreal : ∀ i : Cert.Pre_finite_inputs.S8192x256.Idx, ∃ r : ℝ, X i = (r : EReal) := fun i => by
    have hi := Host.reduce_andi_all _ _ _ _ _ h0 i
    have hlt : max (X i) (-(X i)) < ⊤ := by
      rw [← inf_word]
      by_contra hn
      have e : Ideal.cmp .olt (max (X i) (-(X i))) (Ideal.ofBits .f32 0x7F800000#32) = 0#1 := by
        unfold Ideal.cmp; simp [hn]
      exact absurd (hi.symm.trans e) (by decide)
    exact real_of_abs_lt_top _ hlt
  choose xr hxr using hreal
  exact ⟨fun i c => xr (ValueIdx.ix2 i c), fun i c => hxr (ValueIdx.ix2 i c)⟩

end Cert.FiniteInputs

end
-- ==== Proof.ReferenceValue.lean ====
/-
  The reference's result, read one operation at a time.

  The reference divides every row of the argument by its clamped norm (`unitRow`), multiplies the scaled matrix by its own
  transpose (each entry the sum over the 256 columns of a product of two rows' entries), squares every entry, totals the
  8192 × 8192 squares from `0`, and closes with `(s - n) / (n · n - n)`.  So its result is `closing` of the row Gram
  total of the argument's entries.  A row's sum of squares is started from the zero word, which denotes `0`.
-/
import proofs.«125033_j62929860821405_2_alg».proof.Defs
import proofs.«125033_j62929860821405_2_alg».proof.Proof.Gen.ReferenceIdeal.Run
import proofs.«125033_j62929860821405_2_alg».proof.Proof.Gen.ReferenceIdeal.Read
import proofs.«125033_j62929860821405_2_alg».proof.Proof.Spec

noncomputable section

namespace Cert.ReferenceIdeal.RefValue

open Cert.ReferenceIdeal Cert.ReferenceIdeal.Read Cert.Spec
open Idealize.ShloMosaic Idealize.ShloMosaic.ValueIdx

/-- The scaled matrix at `(i, k)`: row `i` of the argument divided by its clamped norm. -/
theorem scaled_apply (X : (⟨S8192x256, .f32⟩ : BufTy).Contents (Elt Ideal)) (i : Fin 8192) (k : Fin 256) :
    val_main_v4 (F := Ideal) X (ix2 i k) = unitRow (entries X) i k := by
  have e3 : idx_main_v3 (ix2 i k) = ix2 i (0 : Fin 1) :=
    funext fun a => Fin.ext (by match a with | ⟨0, _⟩ => rfl | ⟨1, _⟩ => rfl)
  have e2 : idx_main_call0_v2 (ix2 i (0 : Fin 1)) = ix1 i :=
    funext fun a => Fin.ext (by match a with | ⟨0, _⟩ => rfl)
  have e1 : ∀ c : Fin 256, idx_main_call0_v1 (ix1 i) c = ix2 i c := fun c =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.hostDivf_def, Ideal.maximumf_def, Ideal.hostUnary_sqrt_def,
    Ideal.mulf_def, Ideal.ofBits_def, Ideal.ofBits_zero_f32, zero_add]
  rfl

/-- The product with the transpose at `(i, j)`: the sum over the columns of row `i`'s entry times row `j`'s. -/
theorem rowGram_apply (X : (⟨S8192x256, .f32⟩ : BufTy).Contents (Elt Ideal)) (i j : Fin 8192) :
    val_main_v5 (F := Ideal) X (ix2 i j) = ∑ k : Fin 256, unitRow (entries X) i k * unitRow (entries X) j k := by
  rw [val_main_v5_apply]
  refine Finset.sum_congr rfl fun k _ => ?_
  have el : lidx_main_v5 (ix2 i j) k = ix2 i k :=
    funext fun a => Fin.ext (by match a with | ⟨0, _⟩ => rfl | ⟨1, _⟩ => rfl)
  have er : ridx_main_v5 (ix2 i j) k = ix2 j k :=
    funext fun a => Fin.ext (by match a with | ⟨0, _⟩ => rfl | ⟨1, _⟩ => rfl)
  rw [el, er, scaled_apply, scaled_apply]

/-- The total of the squares, from `0`. -/
theorem total_apply (X : (⟨S8192x256, .f32⟩ : BufTy).Contents (Elt Ideal)) (i0 : S_.Idx) :
    val_main_v7 (F := Ideal) X i0 = rowGramTotal (entries X) := by
  rw [val_main_v7_apply, val_main_cst_0_apply, ValueIdx.sum_idx2]
  simp only [val_main_v6_apply, rowGram_apply, Ideal.mulf_def, Ideal.ofBits_def, Ideal.ofBits_zero_f32]
  rfl

/-- The reference's result is the closing arithmetic applied to the row Gram total of the argument's entries. -/
theorem result_eq (X : (⟨S8192x256, .f32⟩ : BufTy).Contents (Elt Ideal)) :
    val_main_v11 (F := Ideal) X = closing (fun _ => rowGramTotal (entries X)) := by
  have e : val_main_v7 (F := Ideal) X = fun _ => rowGramTotal (entries X) := funext (total_apply X)
  show closing (val_main_v7 (F := Ideal) X) = _
  rw [e]

end Cert.ReferenceIdeal.RefValue

end
-- ==== Proof.KernelCases.lean ====
/-
  What one run of the kernel body leaves behind, case by case, as values.

  The body keeps a 256 × 256 accumulator between grid points.  At the first point it stores the zero matrix into it; at
  every point it loads the point's block of rows `x`, and stores back the accumulator plus the block's increment (the
  payload `k0_pay2 x acc`); at the last point it then reads the accumulator once more and stores the total of its
  squared entries into the 1 × 1 output block (the payload `k0_pay3`).  So:
    first point   : accumulator ← `k0_pay2 x k0_pay1`  (the increment added to the zero matrix just stored)
    middle points : accumulator ← `k0_pay2 x acc`
    last point    : accumulator ← `k0_pay2 x acc`,  output block ← `k0_pay3 (k0_pay2 x acc)`.
  Each store covers its whole buffer, so what a buffer holds afterwards is the payload of the last store into it.
-/
import proofs.«125033_j62929860821405_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A middle point: the accumulator, found at `acc`, is left at the payload of the body's one store into it. -/
theorem scratch_mid (c : Dev nD) (i : grid0.Coords) (a1 : Memref sig .tc .vmem S1024x256 .f32) (h1 : a1.IsWhole)
    (a2 : Memref sig .tc .vmem S1x1 .f32) (h2 : a2.IsWhole) (a3 : Memref sig .tc .vmem S256x256 .f32) (h3 : a3.IsWhole)
    (hc0 : ¬cond0_0 i) (hc1 : ¬cond0_1 i) (x : Vec F S1024x256 .f32) (acc : Vec F S256x256 .f32) :
    sout0_B_0 c i a1 h1 a2 h2 a3 h3 hc0 hc1 x acc = k0_pay2 x acc := by
  unfold sout0_B_0
  rw [View.read_writes_eq_canon _ _ _ (scover0_B_0 c i a1 h1 a2 h2 a3 h3 hc0 hc1 x acc)]
  unfold kernelRun0_B
  dsimp only
  rw [View.canon_unit_zero hz]
  simp only [View.readAt_eq_ld, h1.read_unread, h3.read_unread, View.ld_unit_zero (S := S1024x256) hz,
    View.ld_unit_zero (S := S256x256) hz]

/-- The first point: the zero matrix is stored, read back, and the block's increment added to it. -/
theorem scratch_first (c : Dev nD) (i : grid0.Coords) (a1 : Memref sig .tc .vmem S1024x256 .f32) (h1 : a1.IsWhole)
    (a2 : Memref sig .tc .vmem S1x1 .f32) (h2 : a2.IsWhole) (a3 : Memref sig .tc .vmem S256x256 .f32) (h3 : a3.IsWhole)
    (hc0 : cond0_0 i) (hc1 : ¬cond0_1 i) (x : Vec F S1024x256 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S256x256) hz, View.readCov_unit_zero (S := S256x256) _ hz]
  simp only [View.readAt_eq_ld, h1.read_unread, View.ld_unit_zero (S := S1024x256) hz]

/-- The last point, the accumulator: as at a middle point. -/
theorem scratch_last (c : Dev nD) (i : grid0.Coords) (a1 : Memref sig .tc .vmem S1024x256 .f32) (h1 : a1.IsWhole)
    (a2 : Memref sig .tc .vmem S1x1 .f32) (h2 : a2.IsWhole) (a3 : Memref sig .tc .vmem S256x256 .f32) (h3 : a3.IsWhole)
    (hc0 : ¬cond0_0 i) (hc1 : cond0_1 i) (x : Vec F S1024x256 .f32) (acc : Vec F S256x256 .f32) :
    sout0_C_0 c i a1 h1 a2 h2 a3 h3 hc0 hc1 x acc = k0_pay2 x acc := by
  unfold sout0_C_0
  rw [View.read_writes_eq_canon _ _ _ (scover0_C_0 c i a1 h1 a2 h2 a3 h3 hc0 hc1 x acc)]
  unfold kernelRun0_C
  dsimp only
  sl_unfold_words
  rw [View.canon_unit_zero hz]
  simp only [View.readAt_eq_ld, h1.read_unread, h3.read_unread, View.ld_unit_zero (S := S1024x256) hz,
    View.ld_unit_zero (S := S256x256) hz]

/-- The last point, the output block: the total of the squares of the accumulator just stored. -/
theorem out_last (c : Dev nD) (i : grid0.Coords) (a1 : Memref sig .tc .vmem S1024x256 .f32) (h1 : a1.IsWhole)
    (a2 : Memref sig .tc .vmem S1x1 .f32) (h2 : a2.IsWhole) (a3 : Memref sig .tc .vmem S256x256 .f32) (h3 : a3.IsWhole)
    (hc0 : ¬cond0_0 i) (hc1 : cond0_1 i) (x : Vec F S1024x256 .f32) (acc : Vec F S256x256 .f32) :
    out0_C_1 c i a1 h1 a2 h2 a3 h3 hc0 hc1 x acc = k0_pay3 (k0_pay2 x acc) := by
  unfold out0_C_1
  rw [View.read_writes_eq_canon _ _ _ (cover0_C_1 c i a1 h1 a2 h2 a3 h3 hc0 hc1 x acc)]
  unfold kernelRun0_C
  dsimp only
  sl_unfold_words
  rw [View.canon_unit_zero hz, View.readCov_unit_zero (S := S256x256) _ hz]
  simp only [View.readAt_eq_ld, h1.read_unread, h3.read_unread, View.ld_unit_zero (S := S1024x256) hz,
    View.ld_unit_zero (S := S256x256) hz]

end Cert.KernelIdeal.Cases

end
-- ==== Proof.KernelAccum.lean ====
/-
  The accumulation over the grid, one point at a time.

  After the first point the accumulator holds the first block's increment added to the zero matrix; after every later
  point it holds that point's increment added to what the point before left; and after the last point the output block
  holds the total of the squared entries of the accumulator as that point left it.  These are the three cases of the
  body read as values, placed at the grid points where each case runs (the first point, the middle points, the last).
-/
import proofs.«125033_j62929860821405_2_alg».proof.Proof.KernelCases

noncomputable section

namespace Cert.KernelIdeal.Accum

open Cert.KernelIdeal Cert.KernelIdeal.Gen Cert.KernelIdeal.Cases
open Idealize.ShloMosaic Idealize.ShloMosaic.TcCoe Idealize.SL.Sem

variable {F : FTy → Type} [FloatOps F]
variable (m : (ℓ : Loc nD τ sig) → Buf (Elt F) ℓ)

/-- The first point leaves the first block's increment on the zero matrix. -/
theorem scratch_at_first (c : Dev nD) (t : Fin cfg0.N) (h0 : t.val % 8 = 0) :
    (outsAt0 m c t.val t.isLt).2 = k0_pay2 (iblk m c 0 t) (k0_pay1 (F := F)) := by
  have hN : t.val < 8 := lt_of_lt_of_eq t.isLt (show cfg0.N = 8 from N_0)
  have h1 : ¬t.val % 8 = 7 := by omega
  have e1 := congrArg Prod.snd (outsAt0_A m c t h0 h1)
  have e2 := scratch_first c (grid0.coords t) (ms0_0 t) (hs0_0 t) (ms0_1 t) (hs0_1 t) scM0_0 (Memref.isWhole_whole _)
      ((hcond0_0 t).mpr h0) (fun h => h1 ((hcond0_1 t).mp h)) (iblk m c 0 t)
  exact e1.trans e2

/-- A middle point leaves its block's increment on what the point before left. -/
theorem scratch_at_middle (c : Dev nD) (t : Fin cfg0.N) (h0 : ¬t.val % 8 = 0) (h1 : ¬t.val % 8 = 7) :
    (outsAt0 m c t.val t.isLt).2 = k0_pay2 (iblk m c 0 t) (outsAt0 m c (t.val - 1) (Nat.lt_of_le_of_lt (Nat.sub_le _ _) t.isLt)).2 := by
  have e1 := congrArg Prod.snd (outsAt0_B m c t h0 h1)
  have e2 := scratch_mid c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t)
      (outsAt0 m c (t.val - 1) (Nat.lt_of_le_of_lt (Nat.sub_le _ _) t.isLt)).2
  exact e1.trans e2

/-- So does the last point. -/
theorem scratch_at_last (c : Dev nD) (t : Fin cfg0.N) (h0 : ¬t.val % 8 = 0) (h1 : t.val % 8 = 7) :
    (outsAt0 m c t.val t.isLt).2 = k0_pay2 (iblk m c 0 t) (outsAt0 m c (t.val - 1) (Nat.lt_of_le_of_lt (Nat.sub_le _ _) t.isLt)).2 := by
  have e1 := congrArg Prod.snd (outsAt0_C m c t h0 h1)
  have e2 := scratch_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  exact e1.trans e2

/-- Every later point leaves its block's increment on what the point before left. -/
theorem scratch_at_later (c : Dev nD) (t : Fin cfg0.N) (h0 : ¬t.val % 8 = 0) :
    (outsAt0 m c t.val t.isLt).2 = k0_pay2 (iblk m c 0 t) (outsAt0 m c (t.val - 1) (Nat.lt_of_le_of_lt (Nat.sub_le _ _) t.isLt)).2 := by
  by_cases h1 : t.val % 8 = 7
  · exact scratch_at_last m c t h0 h1
  · exact scratch_at_middle m c t h0 h1

/-- The last point leaves, in the output block, the total of the squares of the accumulator it has just stored. -/
theorem out_at_last (c : Dev nD) (t : Fin cfg0.N) (h1 : t.val % 8 = 7) :
    (outsAt0 m c t.val t.isLt).1 = k0_pay3 (outsAt0 m c t.val t.isLt).2 := by
  have h0 : ¬t.val % 8 = 0 := by omega
  have e1 := congrArg Prod.fst (outsAt0_C m c t h0 h1)
  have e2 := out_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  have e3 := congrArg (k0_pay3 (F := F)) (scratch_at_last m c t h0 h1).symm
  exact (e1.trans e2).trans e3

end Cert.KernelIdeal.Accum

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KernelPayload.lean ====
/-
  The body's three payloads at the ideal values, read at an index.

  For a block `x` of 1024 rows and 256 columns write `u r d` for row `r` of the block divided by its clamped norm
  (`Spec.unitRow` of the block's rows).  Then
    the zero matrix the first point stores is `0` at every entry;
    the accumulator's update at `(d, e)` is the old entry plus `∑ r, u r d · u r e`: the product contracts the ROW axis
      of the scaled block with itself (a column Gram matrix), the narrowing of the scaled block to sixteen bits being the
      identity on the extended reals;
    the output entry is `∑ d, ∑ e, g d e · g d e` of the accumulator `g`: a lane sum kept as a column, then summed
      down the column.
-/
import proofs.«125033_j62929860821405_2_alg».proof.Proof.Gen.KernelIdeal.Skeleton
import proofs.«125033_j62929860821405_2_alg».proof.Proof.LibColumns
import proofs.«125033_j62929860821405_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Spec Cert.Columns
open Idealize.ShloMosaic Idealize.ShloMosaic.ValueIdx

/-- The rows of a block, as a matrix indexed by row and column. -/
def rows (x : FVec Ideal S1024x256 .f32) : Fin 1024 → Fin 256 → EReal := fun r c => x (ix2 r c)

/-! ## The sums -/

/-- A sum along the 256 lanes of a block, at row `r`. -/
theorem laneSum_block (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ c : Fin 256, v (ix2 r c) := by
  refine (Ideal.multiReduction_add_single v 0x00000000#32 h hφ hacc (ix1 r)).trans ?_
  exact Finset.sum_congr rfl fun c _ => congrArg v (funext fun a => Fin.ext (by
    match a with
    | ⟨0, _⟩ => rfl
    | ⟨1, _⟩ => rfl))

/-- A sum along the 256 lanes of the accumulator, at row `d`. -/
theorem laneSum_acc (v : FVec Ideal S256x256 .f32) (h : S256x256.Reduces [1] S256) (hφ : FKind.Formats .f32)
    (hacc : (0x00000000#32 : BitVec 32) = FKind.add.neutral .f32 hφ) (d : Fin 256) :
    multiReduction .add [1] S256 v 0x00000000#32 h hφ hacc (ix1 d) = ∑ e : Fin 256, v (ix2 d e) := by
  refine (Ideal.multiReduction_add_single v 0x00000000#32 h hφ hacc (ix1 d)).trans ?_
  exact Finset.sum_congr rfl fun e _ => congrArg v (funext fun a => Fin.ext (by
    match a with
    | ⟨0, _⟩ => rfl
    | ⟨1, _⟩ => rfl))

/-- A sum down a column of 256 entries. -/
theorem columnSum (v : FVec Ideal S256x1 .f32) (h : S256x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ d : Fin 256, v (ix2 d u) := by
  refine (Ideal.multiReduction_add_single v 0x00000000#32 h hφ hacc (ix1 u)).trans ?_
  exact Finset.sum_congr rfl fun d _ => congrArg v (funext fun a => Fin.ext (by
    match a with
    | ⟨0, _⟩ => rfl
    | ⟨1, _⟩ => rfl))

/-! ## The scaled block -/

/-- The column of clamped row norms, at row `r`. -/
theorem norms_apply (x : FVec Ideal S1024x256 .f32) (h : S1024x256.Reduces [1] S1024) (hφ : FKind.Formats .f32)
    (hacc : (0x00000000#32 : BitVec 32) = FKind.add.neutral .f32 hφ) (hs : S1024.ShapeCasts S1024x1) (r : Fin 1024) (u : Fin 1) :
    maximumf (sqrt (shapeCast S1024x1 (multiReduction .add [1] S1024 (mulf x x) 0x00000000#32 h hφ hacc) hs))
        (broadcast S1024x1 (Scalar.ofBits (F := Ideal) .f32 0x322BCC77#32)) (ix2 r u)
      = max (Ideal.sqrt (∑ c : Fin 256, rows x r c * rows x r c)) eps := by
  show max (Ideal.sqrt (shapeCast S1024x1 (multiReduction .add [1] S1024 (mulf x x) 0x00000000#32 h hφ hacc) hs (ix2 r u))) eps = _
  exact congrArg (fun s => max (Ideal.sqrt s) eps)
    ((shapeCast_a_a1_apply _ hs r u).trans (laneSum_block (mulf x x) h hφ hacc r))

/-- The block with every row divided by its clamped norm and narrowed to sixteen bits, at `(r, d)`. -/
theorem scaled_apply (x : FVec Ideal S1024x256 .f32) (h : S1024x256.Reduces [1] S1024) (hφ : FKind.Formats .f32)
    (hacc : (0x00000000#32 : BitVec 32) = FKind.add.neutral .f32 hφ) (hs : S1024.ShapeCasts S1024x1)
    (hb : S1024x1.Broadcasts S1024x256) (hbits : FTy.bits .bf16 < FTy.bits .f32) (r : Fin 1024) (d : Fin 256) :
    (truncf .bf16 (divf x (broadcastTo S1024x256
        (maximumf (sqrt (shapeCast S1024x1 (multiReduction .add [1] S1024 (mulf x x) 0x00000000#32 h hφ hacc) hs))
          (broadcast S1024x1 (Scalar.ofBits (F := Ideal) .f32 0x322BCC77#32))) hb)) hbits : FVec Ideal S1024x256 .bf16) (ix2 r d)
      = unitRow (rows x) r d := by
  show Ideal.div (x (ix2 r d)) (broadcastTo S1024x256
        (maximumf (sqrt (shapeCast S1024x1 (multiReduction .add [1] S1024 (mulf x x) 0x00000000#32 h hφ hacc) hs))
          (broadcast S1024x1 (Scalar.ofBits (F := Ideal) .f32 0x322BCC77#32))) hb (ix2 r d)) = _
  exact congrArg (Ideal.div (x (ix2 r d)))
    ((broadcastTo_a1_ab_apply _ hb r d).trans (norms_apply x h hφ hacc hs r 0))

/-! ## The product that contracts the rows -/

theorem lhs_row (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem lhs_col (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide),
    dif_pos (show (1 : Fin S1024x256.rank) ∈ dot_S1024x256_S1024x256_S256x256_0_0_1_1_n_n.lhsNonContracting by decide)]
  rfl
theorem rhs_row (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem rhs_col (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide),
    dif_pos (show (1 : Fin S1024x256.rank) ∈ dot_S1024x256_S1024x256_S256x256_0_0_1_1_n_n.rhsNonContracting by decide)]
  rfl

/-- The product of two blocks contracting their row axes, into the zero matrix, at `(d, e)`: the sum over the rows of
    the left block's column `d` times the right block's column `e`. -/
theorem rowContract_apply (l r : FVec Ideal S1024x256 .bf16) (d e : Fin 256) :
    matmul dot_S1024x256_S1024x256_S256x256_0_0_1_1_n_n none l r (constant (F := Ideal) S256x256 .f32 0x00000000#32) (ix2 d e)
      = ∑ k : Fin 1024, l (ix2 k d) * r (ix2 k e) := by
  refine (Ideal.matmul_constant_zero_apply dot_S1024x256_S1024x256_S256x256_0_0_1_1_n_n none l r (ix2 d e)).trans ?_
  rw [← Equiv.sum_comp (ValueIdx.contrEquiv1 dot_S1024x256_S1024x256_S256x256_0_0_1_1_n_n 1024 rfl rfl).symm]
  refine Finset.sum_congr rfl fun k _ => ?_
  have hk := ValueIdx.contrEquiv1_symm_val dot_S1024x256_S1024x256_S256x256_0_0_1_1_n_n 1024 rfl rfl k
  have el : dot_S1024x256_S1024x256_S256x256_0_0_1_1_n_n.lhsIdx (ix2 d e)
      ((ValueIdx.contrEquiv1 dot_S1024x256_S1024x256_S256x256_0_0_1_1_n_n 1024 rfl rfl).symm k) = ix2 k d :=
    funext fun a => Fin.ext (by
      match a with
      | ⟨0, _⟩ => exact (lhs_row _ _).trans hk
      | ⟨1, _⟩ => exact lhs_col _ _)
  have er : dot_S1024x256_S1024x256_S256x256_0_0_1_1_n_n.rhsIdx (ix2 d e)
      ((ValueIdx.contrEquiv1 dot_S1024x256_S1024x256_S256x256_0_0_1_1_n_n 1024 rfl rfl).symm k) = ix2 k e :=
    funext fun a => Fin.ext (by
      match a with
      | ⟨0, _⟩ => exact (rhs_row _ _).trans hk
      | ⟨1, _⟩ => exact rhs_col _ _)
  rw [el, er]

/-! ## The three payloads -/

/-- The matrix the first point stores is zero at every entry. -/
theorem zero_apply (j : S256x256.Idx) : k0_pay1 (F := Ideal) j = 0 := by
  unfold k0_pay1
  rw [shapeCast_self]
  exact Ideal.ofBits_zero_f32

/-- The accumulator's update at `(d, e)`: the old entry plus the block's column Gram entry. -/
theorem update_apply (x : FVec Ideal S1024x256 .f32) (acc : FVec Ideal S256x256 .f32) (d e : Fin 256) :
    k0_pay2 x acc (ix2 d e) = acc (ix2 d e) + ∑ r : Fin 1024, unitRow (rows x) r d * unitRow (rows x) r e := by
  unfold k0_pay2
  rw [shapeCast_self]
  refine congrArg (acc (ix2 d e) + ·) ?_
  refine (rowContract_apply _ _ d e).trans ?_
  refine Finset.sum_congr rfl fun r _ => ?_
  exact congrArg₂ (· * ·) (scaled_apply x _ _ _ _ _ _ r d) (scaled_apply x _ _ _ _ _ _ r e)

/-- The output entry: the total of the squared entries of the accumulator. -/
theorem total_apply (g : FVec Ideal S256x256 .f32) (u v : Fin 1) :
    k0_pay3 g (ix2 u v) = ∑ d : Fin 256, ∑ e : Fin 256, g (ix2 d e) * g (ix2 d e) := by
  unfold k0_pay3
  refine (shapeCast_a_a1_apply _ _ u v).trans ?_
  refine (columnSum _ _ _ _ u).trans ?_
  refine Finset.sum_congr rfl fun d _ => ?_
  refine (shapeCast_a_a1_apply _ _ d u).trans ?_
  exact laneSum_acc (mulf g g) _ _ _ d

end Cert.KernelIdeal.Payload

end
-- ==== Proof.KernelValue.lean ====
/-
  The kernel's result at the ideal values.

  Point `t` of the grid loads rows `1024 t … 1024 t + 1023` of the argument.  So after point `n` the accumulator holds,
  at `(d, e)`, `0` plus the sum over the blocks `t ≤ n` of `∑ r, u (1024 t + r) d · u (1024 t + r) e`, with `u` the
  argument's rows divided by their clamped norms: by induction on the point, each point adding its block's term to what
  the point before left.  The last point stores the total of the accumulator's squared entries — the column Gram total of
  the argument — into the 1 × 1 output block, which is the only block written back and is the whole output array.  The
  lines after the pallas_call read that entry as a scalar and apply the closing arithmetic to it.
-/
import proofs.«125033_j62929860821405_2_alg».proof.Proof.KernelAccum
import proofs.«125033_j62929860821405_2_alg».proof.Proof.KernelPayload
import proofs.«125033_j62929860821405_2_alg».proof.Proof.Spec
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.KernelIdeal.Accum Cert.KernelIdeal.Payload Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument array on core `c`, as a matrix. -/
def argEntries (c : Dev nD) : Fin 8192 → Fin 256 → EReal := entries (m ((c : Thread nD τ).loc main_arg0))

/-! ## A point's block is a block of rows of the argument -/

/-- The input window's block index at point `t` is `(t, 0)`. -/
theorem index_facts : ∀ t : Fin cfg0.N, win0_0.index t 0 = t.val ∧ win0_0.index t 1 = 0 :=
  (by decide +kernel : ∀ t : Fin grid0.N, win0_0.index t 0 = t.val ∧ win0_0.index t 1 = 0)

/-- Entry `(r, k)` of the block loaded at point `t` is entry `(1024 t + r, k)` of the argument. -/
theorem block_entry (c : Dev nD) (t : Fin cfg0.N) (ht : t.val < 8) (r : Fin 1024) (k : Fin 256) :
    (iblk m c 0 t : Vec Ideal S1024x256 .f32) (ix2 r k) = argEntries m c (blockRow ⟨t.val, ht⟩ r) k := by
  unfold iblk
  rw [View.read_apply]
  show V m c main_arg0 _ = m ((c : Thread nD τ).loc main_arg0) _
  rw [V_main_arg0]
  congr 1
  funext a
  apply Fin.ext
  match a with
  | ⟨0, _⟩ =>
    show win0_0.index t 0 * 1024 + 1 * r.val = 1024 * t.val + r.val
    rw [(index_facts t).1]; omega
  | ⟨1, _⟩ =>
    show win0_0.index t 1 * 256 + 1 * k.val = k.val
    rw [(index_facts t).2]; omega

/-- So the block's rows are the argument's rows `1024 t + r`. -/
theorem rows_block (c : Dev nD) (t : Fin cfg0.N) (ht : t.val < 8) :
    rows (iblk m c 0 t) = fun r k => argEntries m c (blockRow ⟨t.val, ht⟩ r) k :=
  funext fun r => funext fun k => block_entry m c t ht r k

/-! ## The accumulator after each point -/

/-- Block `t`'s term of the column Gram matrix at `(d, e)` (`0` for a block number the grid does not have). -/
def blockTerm (x : Fin 8192 → Fin 256 → EReal) (d e : Fin 256) (t : ℕ) : EReal :=
  if ht : t < 8 then ∑ r : Fin 1024, unitRow x (blockRow ⟨t, ht⟩ r) d * unitRow x (blockRow ⟨t, ht⟩ r) e else 0

/-- The block's increment is its term. -/
theorem increment_eq (c : Dev nD) (t : Fin cfg0.N) (ht : t.val < 8) (d e : Fin 256) :
    ∑ r : Fin 1024, unitRow (rows (iblk m c 0 t)) r d * unitRow (rows (iblk m c 0 t)) r e
      = blockTerm (argEntries m c) d e t.val := by
  rw [rows_block m c t ht]
  unfold blockTerm
  rw [dif_pos ht]
  rfl

/-- After point `n` the accumulator holds `0` plus the terms of the blocks up to `n`. -/
theorem acc_closed (c : Dev nD) (d e : Fin 256) : ∀ (n : ℕ) (h : n < cfg0.N),
    (outsAt0 m c n h).2 (ix2 d e) = 0 + ∑ t ∈ Finset.range (n + 1), blockTerm (argEntries m c) d e t
  | 0, h => by
    have hN : cfg0.N = 8 := N_0
    have e0 := congrFun (scratch_at_first m c ⟨0, h⟩ rfl) (ix2 d e)
    refine e0.trans ?_
    refine (update_apply (iblk m c 0 ⟨0, h⟩) (k0_pay1 (F := Ideal)) d e).trans ?_
    rw [zero_apply, Finset.sum_range_one]
    exact congrArg (0 + ·) (increment_eq m c ⟨0, h⟩ (show (0 : ℕ) < 8 by decide) d e)
  | n + 1, h => by
    have hN : cfg0.N = 8 := N_0
    have h0 : ¬(⟨n + 1, h⟩ : Fin cfg0.N).val % 8 = 0 := by dsimp only; omega
    have e1 := congrFun (scratch_at_later m c ⟨n + 1, h⟩ h0) (ix2 d e)
    refine e1.trans ?_
    refine (update_apply (iblk m c 0 ⟨n + 1, h⟩) _ d e).trans ?_
    rw [Finset.sum_range_succ _ (n + 1), ← add_assoc]
    refine congrArg₂ (· + ·) (acc_closed c d e n (Nat.lt_of_succ_lt h)) ?_
    exact increment_eq m c ⟨n + 1, h⟩ (by dsimp only; omega) d e

/-- The eight terms are the sum over the eight blocks. -/
theorem sum_blockTerm (x : Fin 8192 → Fin 256 → EReal) (d e : Fin 256) :
    ∑ t ∈ Finset.range (7 + 1), blockTerm x d e t
      = ∑ t : Fin 8, ∑ r : Fin 1024, unitRow x (blockRow t r) d * unitRow x (blockRow t r) e := by
  rw [Finset.sum_range]
  refine Finset.sum_congr rfl fun t _ => ?_
  unfold blockTerm
  rw [dif_pos t.isLt]

/-! ## The output block -/

theorem seven_lt : 7 < cfg0.N := by rw [show cfg0.N = 8 from N_0]; decide

/-- What the last point leaves in the output block: the column Gram total of the argument, at its one entry. -/
theorem out_total (c : Dev nD) (u v : Fin 1) :
    (outsAt0 m c 7 seven_lt).1 (ix2 u v) = colGramTotal (argEntries m c) := by
  have e := congrFun (out_at_last m c ⟨7, seven_lt⟩ rfl) (ix2 u v)
  refine e.trans ?_
  refine (total_apply _ u v).trans ?_
  unfold colGramTotal
  refine Finset.sum_congr rfl fun d _ => Finset.sum_congr rfl fun e _ => ?_
  have hde := acc_closed m c d e 7 seven_lt
  rw [sum_blockTerm] at hde
  exact congrArg₂ (· * ·) hde hde

/-- The output array after the run: what the last point left in the block. -/
abbrev result (c : Dev nD) : Buf (Elt Ideal) ((c : Thread nD τ).loc main_v0) := (outsAt0 m c 7 seven_lt).1

/-- The one write-back, at the last point, writes it: the block is the whole 1 × 1 array. -/
theorem flushed_eq (c : Dev nD) (t : Fin cfg0.N) (hf : (cfg0.win 1).flush t = true) :
    (dats m 0 c).flushed 1 t = ((cfg0.win 1).blk t).view.read (Elt Ideal) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  have hz' : (fun a => win0_1.index t0_7 a * main_v0.ty.shape.size a) = fun _ => 0 := funext fun a => by fin_cases a <;> decide
  exact (Memref.read_access_unit_zero (Elt Ideal) main_v0 hz' (fun a => by rw [congrFun hz' a]; simp) (result m c)).symm

/-- So the output array ends holding it: the last point's block covers the array. -/
theorem final_out (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_v0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [show win0_1.index t0_7 0 * win0_1.size 0 = 0 from by decide +kernel, show win0_1.xsize (grid0.coords t0_7) 0 = 1 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [show win0_1.index t0_7 1 * win0_1.size 1 = 0 from by decide +kernel, show win0_1.xsize (grid0.coords t0_7) 1 = 1 from by decide +kernel]; omega⟩

/-! ## The lines after the pallas_call -/

/-- The output array read as a scalar is the column Gram total. -/
theorem scalar_eq (c : Dev nD) (hc : S1x1.ShapeCasts S_) :
    shapeCast S_ (result m c) hc = fun _ => colGramTotal (argEntries m c) := by
  funext i
  refine (shapeCast_apply (s := S1x1) (t := S_) (result m c) hc i (ix2 (0 : Fin 1) (0 : Fin 1)) ?_).trans (out_total m c 0 0)
  show (S1x1.rowMajor (ix2 (0 : Fin 1) (0 : Fin 1))).val = (S_.rowMajor i).val
  have h1 : (S1x1.rowMajor (ix2 (0 : Fin 1) (0 : Fin 1))).val < 1 := (S1x1.rowMajor (ix2 (0 : Fin 1) (0 : Fin 1))).isLt
  have h2 : (S_.rowMajor i).val < 1 := (S_.rowMajor i).isLt
  omega

/-- @main's result: the closing arithmetic applied to the column Gram total of the argument. -/
theorem tail_eq (c : Dev nD) :
    Pipeline.afterTail₀ cfgs (dats m) 0 (V0 m) [hostOps1] c main_v5 = closing (fun _ => colGramTotal (argEntries m c)) := by
  unfold Pipeline.afterTail₀
  show StableHlo.after hostOps1 _ (Proc.devRef .tc main_v5) = _
  after_results
  have hv0 : Pipeline.withArrays (cfgs 0).spec c (V0 m c) (fun w => (dats m 0 c).arrAt w (cfgs 0).N) (Proc.devRef .tc main_v0)
      = result m c :=
    (Pipeline.withArrays_arr spec0 launch0.win.arr_inj c (V0 m c) (fun w => (dats m 0 c).arrAt w (cfgs 0).N) 1).trans (final_out m c)
  rw [hv0]
  show closing (shapeCast S_ (result m c) shapeCasts_S1x1_S_) = _
  rw [scalar_eq]

/-! ## The run -/

/-- Every weakly fair execution of the kernel's @main ends with its result at the closing arithmetic of the column Gram
    total of the argument, the argument unchanged. -/
theorem run : θ_run defs (onTc (τ := τ) (main (F := Ideal))) ⟨m, fun _ => 0, ρ⟩ fun r => ∀ c : Dev nD,
      r.2.mem ((c.tc : Thread nD τ).loc main_v5) = closing (fun _ => colGramTotal (argEntries m c))
      ∧ r.2.mem ((c.tc : Thread nD τ).loc main_arg0) = m ((c.tc : Thread nD τ).loc main_arg0) :=
  (θ_run defs _ _).mono (fun _ h c =>
    ⟨((h c).2 main_v5 (Pipeline.mem_restRefs_of main_v5 rfl (fun w => by fin_cases w <;> decide))).trans (tail_eq m c),
      ((h c).1 0).trans (((dats m 0 c).arrAt_in 0 rfl _).trans ((A_eq m c 0).trans (V_main_arg0 m c)))⟩)
    (run_main m ρ)

end Cert.KernelIdeal.KValue

end
-- ==== Proof.lean ====
/-
  The five claims.

  Both programs divide each row of the 8192 × 256 argument by its Euclidean norm clamped below at a small positive
  constant, and both return `(s - n) / (n · n - n)` of a total `s`.  The kernel's `s` is the sum of the squared entries
  of `uᵀ u`, the 256 × 256 Gram matrix of the scaled matrix's COLUMNS, accumulated over eight blocks of 1024 rows; the
  reference's is the sum of the squared entries of `u uᵀ`, the 8192 × 8192 Gram matrix of its ROWS.  The two totals
  agree — each is the sum over `i, j, d, e` of `u i d · u i e · u j d · u j e` — by a law that distributes products over
  sums, which holds once every entry of `u` is a real; that is what the precondition (every entry of the argument finite)
  gives: a row's sum of squares is then a non-negative real, its root a real, the clamped norm a positive real, and the
  quotient a real.

  The frames of the two kernel programs are their frame runs; the reference's frame is its run with the result dropped;
  the idealization rewrote nothing, so `preserves` has nothing to state.
-/
import proofs.«125033_j62929860821405_2_alg».proof.Defs
import proofs.«125033_j62929860821405_2_alg».proof.Proof.Gen.Kernel
import proofs.«125033_j62929860821405_2_alg».proof.Proof.Gen.Kernel.Frame
import proofs.«125033_j62929860821405_2_alg».proof.Proof.Gen.KernelIdeal
import proofs.«125033_j62929860821405_2_alg».proof.Proof.Gen.KernelIdeal.Frame
import proofs.«125033_j62929860821405_2_alg».proof.Proof.Gen.ReferenceIdeal
import proofs.«125033_j62929860821405_2_alg».proof.Proof.Gen.ReferenceIdeal.Run
import proofs.«125033_j62929860821405_2_alg».proof.Proof.Gen.ReferenceIdeal.Read
import proofs.«125033_j62929860821405_2_alg».proof.Proof.Gen.Pre_finite_inputs
import proofs.«125033_j62929860821405_2_alg».proof.Proof.Spec
import proofs.«125033_j62929860821405_2_alg».proof.Proof.FiniteInputs
import proofs.«125033_j62929860821405_2_alg».proof.Proof.ReferenceValue
import proofs.«125033_j62929860821405_2_alg».proof.Proof.KernelValue
import Idealize.ShloMosaic.Adequacy
import Idealize.ShloMosaic.Init

noncomputable section

namespace Cert.Proof

open Idealize.ShloMosaic Idealize.SL.Sem Cert.Spec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, under the precondition: the kernel ends at the closing arithmetic of the
    column Gram total, the reference at that of the row Gram total, of one matrix of reals; the totals agree. -/
theorem algebraic : Cert.algebraic_KernelIdeal_ReferenceIdeal := by
  intro m ρ m' ρ' hpre hagree
  refine ⟨fun c => closing (fun _ => colGramTotal (Cert.KernelIdeal.KValue.argEntries m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, hagree c]
  obtain ⟨xr, hxr⟩ := Cert.FiniteInputs.entries_real _ (hpre c)
  exact congrArg closing (funext fun _ => (colGramTotal_eq_rowGramTotal _ xr hxr).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
